-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S1x4096 : Shape := ⟨2, ![1, 4096]⟩
abbrev S4096x1024 : Shape := ⟨2, ![4096, 1024]⟩
abbrev S1024x4096 : Shape := ⟨2, ![1024, 4096]⟩
abbrev S256x1024 : Shape := ⟨2, ![256, 1024]⟩
abbrev S256x4096 : Shape := ⟨2, ![256, 4096]⟩

abbrev nBuf : Space → Nat
  | .hbm => 22
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S1x4096, .f32⟩
  | .hbm, ⟨14, _⟩ => ⟨S4096x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S16384x1024, .f32⟩
  | .hbm, ⟨21, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  shapeCasts_S4096_S1x4096 : S4096.ShapeCasts S1x4096
  slices_S4096x2048_S4096x1024_0_0 : S4096x2048.Slices ![0, 0] S4096x1024
  transposes_S4096x1024_S1024x4096_1_0 : S4096x1024.Transposes [1, 0] S1024x4096
  bitsLt_bf16_f32 : FTy.bits .bf16 < FTy.bits .f32
  slices_S4096x2048_S4096x1024_0_1024 : S4096x2048.Slices ![0, 1024] S4096x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.CellBody.lean ====
/-
  The LSTM cell's kernel body at one grid point, as a triple over its eight staging buffers.

  At a point the body reads six blocks — a 256-row tile of x, of h and of c, the two pre-transposed weight
  matrices WxT, WhT : [1024, 4096] whole, and the bias row [1, 4096] — and stores two 256 x 1024 tiles:
  c' = sigmoid(z_f) * c + sigmoid(z_i) * tanh(z_g)   and   h' = tanh(c') * sigmoid(z_o),
  where z = x . WxT + h . WhT + bias : [256, 4096] and z_f, z_i, z_g, z_o are its four column quarters.
  Each store covers its whole buffer, so what a buffer holds afterwards is the stored value itself; the
  body also loads both output buffers before overwriting them, and what it finds there is never used.
-/
import proofs.«174920_j15633680957661_2_alg».proof.Proof.Gen.Kernel.Launch
import proofs.«174920_j15633680957661_2_alg».proof.Proof.Gen.Kernel.Skeleton
import proofs.«174920_j15633680957661_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 256 x 1024 tile, the whole weight matrix, the whole bias row: every access of the body is one of these. -/
abbrev tileRect : Rect S256x1024 := Rect.unit (s := S256x1024) ![0, 0] S256x1024.size inb_S256x1024_S256x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-- The new cell state c' the body leaves in its first output buffer, from the six blocks it read. -/
def cellState (x h c : Vec F S256x1024 .f32) (wx wh : Vec F S1024x4096 .bf16) (b : Vec F S1x4096 .f32) : Vec F S256x1024 .f32 :=
  View.canon [⟨tileRect, k0_pay2 (View.ld x tileRect) (View.ld h tileRect) (View.ld wx weightRect) (View.ld wh weightRect)
    (View.ld b biasRect) (View.ld c tileRect)⟩]

/-- The new hidden state h' the body leaves in its second output buffer. -/
def hiddenState (x h c : Vec F S256x1024 .f32) (wx wh : Vec F S1024x4096 .bf16) (b : Vec F S1x4096 .f32) : Vec F S256x1024 .f32 :=
  View.canon [⟨tileRect, k0_pay3 (View.ld x tileRect) (View.ld h tileRect) (View.ld wx weightRect) (View.ld wh weightRect)
    (View.ld b biasRect) (View.ld c tileRect)⟩]

/-- One store through the whole tile covers the buffer. -/
theorem tile_covered (p0 : Vec F S256x1024 .f32) (y : S256x1024.Idx) :
    ∃ pc ∈ ([⟨tileRect, p0⟩] : List (View.Piece (Elt F) S256x1024 .f32)), y ∈ pc.1.set :=
  View.cover_of_tiled [⟨tileRect, p0⟩] S256x1024.size (by rfl) y

set_option maxHeartbeats 1000000 in
/-- The body on whole staging memrefs: the six inputs at their contents, the two outputs at anything; it ends with the inputs
    as they were and the outputs at c' and h'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cs : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare (cellState x h cs wx wh b)
            ∗ owns (c : Thread nD τ) arg8 fullShare (hiddenState x h cs wx wh b)) -∗ K ⟨⟩))
      ⊢ wp frame (wpE (defs₀ (F := F)) Variants.none c none) E
          (cc0__lambda_ i arg1 harg1 arg2 harg2 arg3 harg3 arg4 harg4 arg5 harg5 arg6 harg6 arg7 harg7 arg8 harg8) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  · iexists _; isplitr
    swap; · iexact H8
    ipureintro
    exact View.read_writes_eq_canon _ _ _ (tile_covered _)

end Cert.Kernel.Cell

end
-- ==== Proof.CellFrame.lean ====
/-
  The run of the LSTM cell program up to and through its one pipelined region, and its frame.

  Before the region the host stacks the four gates' weights [1024, 2048] into one [4096, 2048] matrix and their biases
  into one row [1, 4096], and takes the transposes of the matrix's left and right halves (the x-part and the h-part),
  each [1024, 4096]. None of these writes an argument array, so the region finds the eleven arguments as launched.
  The region walks 64 row tiles; at tile t it fetches rows 256 t .. 256 t + 255 of x, h and c, keeps the two weight
  matrices and the bias row resident (fetched once, their block index never moves), runs the body and writes the
  two result tiles back. The proof data says, per window and tile, what the staging buffer holds after the body:
  an input's block unchanged, an output's the body's value of the six input blocks.
-/
import proofs.«174920_j15633680957661_2_alg».proof.Proof.CellBody

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of the core holds when the region is entered: the launch contents after the nine host operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! No host operation writes an argument array: each is found as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window w's block at tile t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every tile, fetched there or not (unfetched, its block
    index has not moved since the tile before), for any proof data over the entry contents whose body leaves the block in place. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run to the library's post -/

theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 2).trans (((dats 0 c).arrAt_in 2 rfl _).trans ((hA c 2).trans (entry_arg1 m c))),
      ((h c).1 1).trans (((dats 0 c).arrAt_in 1 rfl _).trans ((hA c 1).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

/-! ## The proof data -/

/-- Per window and tile, what the staging buffer holds after the body: the six inputs' blocks as fetched, the two outputs'
    at the new cell state and the new hidden state of those blocks. Nothing is carried between tiles. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellState (blockAt m c 0 t) (blockAt m c 1 t) (blockAt m c 2 t) (blockAt m c 3 t) (blockAt m c 4 t) (blockAt m c 5 t)
    | ⟨7, _⟩ => hiddenState (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = cellState (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = hiddenState (blockAt m c 0 t) (blockAt m c 1 t) (blockAt m c 2 t) (blockAt m c 3 t) (blockAt m c 4 t) (blockAt m c 5 t) := by dsimp only [dats]

theorem found0 (c : Dev nD) (t : Fin cfg0.N) (d) : (dats m 0 c).before 0 t d = blockAt m c 0 t :=
  found0_of m (dats m 0 c) (dats_A m c 0) (after0 m c) t d
theorem found1 (c : Dev nD) (t : Fin cfg0.N) (d) : (dats m 0 c).before 1 t d = blockAt m c 1 t :=
  found1_of m (dats m 0 c) (dats_A m c 1) (after1 m c) t d
theorem found2 (c : Dev nD) (t : Fin cfg0.N) (d) : (dats m 0 c).before 2 t d = blockAt m c 2 t :=
  found2_of m (dats m 0 c) (dats_A m c 2) (after2 m c) t d
theorem found3 (c : Dev nD) (t : Fin cfg0.N) (d) : (dats m 0 c).before 3 t d = blockAt m c 3 t :=
  found3_of m (dats m 0 c) (dats_A m c 3) (after3 m c) t d
theorem found4 (c : Dev nD) (t : Fin cfg0.N) (d) : (dats m 0 c).before 4 t d = blockAt m c 4 t :=
  found4_of m (dats m 0 c) (dats_A m c 4) (after4 m c) t d
theorem found5 (c : Dev nD) (t : Fin cfg0.N) (d) : (dats m 0 c).before 5 t d = blockAt m c 5 t :=
  found5_of m (dats m 0 c) (dats_A m c 5) (after5 m c) t d

/-! ## The body obligation at a generic tile -/

def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- Every weakly fair execution of the program terminates without a fault; afterwards every window's array holds what the
    proof data computes, and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs to the end, nothing faults, the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (dats m) (dats_A m) (run_main m ρ)

end Cert.Kernel.Cell

end
-- ==== Proof.CellBodyIdeal.lean ====
/-
  The LSTM cell's kernel body at one grid point, as a triple over its eight staging buffers.

  At a point the body reads six blocks — a 256-row tile of x, of h and of c, the two pre-transposed weight
  matrices WxT, WhT : [1024, 4096] whole, and the bias row [1, 4096] — and stores two 256 x 1024 tiles:
  c' = sigmoid(z_f) * c + sigmoid(z_i) * tanh(z_g)   and   h' = tanh(c') * sigmoid(z_o),
  where z = x . WxT + h . WhT + bias : [256, 4096] and z_f, z_i, z_g, z_o are its four column quarters.
  Each store covers its whole buffer, so what a buffer holds afterwards is the stored value itself; the
  body also loads both output buffers before overwriting them, and what it finds there is never used.
-/
import proofs.«174920_j15633680957661_2_alg».proof.Proof.Gen.KernelIdeal.Launch
import proofs.«174920_j15633680957661_2_alg».proof.Proof.Gen.KernelIdeal.Skeleton
import proofs.«174920_j15633680957661_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 256 x 1024 tile, the whole weight matrix, the whole bias row: every access of the body is one of these. -/
abbrev tileRect : Rect S256x1024 := Rect.unit (s := S256x1024) ![0, 0] S256x1024.size inb_S256x1024_S256x1024_0_0
abbrev weightRect : Rect S1024x4096 := Rect.unit (s := S1024x4096) ![0, 0] S1024x4096.size inb_S1024x4096_S1024x4096_0_0
abbrev biasRect : Rect S1x4096 := Rect.unit (s := S1x4096) ![0, 0] S1x4096.size inb_S1x4096_S1x4096_0_0

/-- The new cell state c' the body leaves in its first output buffer, from the six blocks it read. -/
def cellState (x h c : Vec F S256x1024 .f32) (wx wh : Vec F S1024x4096 .bf16) (b : Vec F S1x4096 .f32) : Vec F S256x1024 .f32 :=
  View.canon [⟨tileRect, k0_pay2 (View.ld x tileRect) (View.ld h tileRect) (View.ld wx weightRect) (View.ld wh weightRect)
    (View.ld b biasRect) (View.ld c tileRect)⟩]

/-- The new hidden state h' the body leaves in its second output buffer. -/
def hiddenState (x h c : Vec F S256x1024 .f32) (wx wh : Vec F S1024x4096 .bf16) (b : Vec F S1x4096 .f32) : Vec F S256x1024 .f32 :=
  View.canon [⟨tileRect, k0_pay3 (View.ld x tileRect) (View.ld h tileRect) (View.ld wx weightRect) (View.ld wh weightRect)
    (View.ld b biasRect) (View.ld c tileRect)⟩]

/-- One store through the whole tile covers the buffer. -/
theorem tile_covered (p0 : Vec F S256x1024 .f32) (y : S256x1024.Idx) :
    ∃ pc ∈ ([⟨tileRect, p0⟩] : List (View.Piece (Elt F) S256x1024 .f32)), y ∈ pc.1.set :=
  View.cover_of_tiled [⟨tileRect, p0⟩] S256x1024.size (by rfl) y

set_option maxHeartbeats 1000000 in
/-- The body on whole staging memrefs: the six inputs at their contents, the two outputs at anything; it ends with the inputs
    as they were and the outputs at c' and h'. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cs : Vec F S256x1024 .f32) (wx wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cs
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cs
            ∗ owns (c : Thread nD τ) arg4 fullShare wx ∗ owns (c : Thread nD τ) arg5 fullShare wh ∗ owns (c : Thread nD τ) arg6 fullShare b
            ∗ owns (c : Thread nD τ) arg7 fullShare (cellState x h cs wx wh b)
            ∗ owns (c : Thread nD τ) arg8 fullShare (hiddenState x h cs wx wh b)) -∗ K ⟨⟩))
      ⊢ wp frame (wpE (defs₀ (F := F)) Variants.none c none) E
          (cc0__lambda_ i arg1 harg1 arg2 harg2 arg3 harg3 arg4 harg4 arg5 harg5 arg6 harg6 arg7 harg7 arg8 harg8) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_covered _)
  · iexists _; isplitr
    swap; · iexact H8
    ipureintro
    exact View.read_writes_eq_canon _ _ _ (tile_covered _)

end Cert.KernelIdeal.Cell

end
-- ==== Proof.CellFrameIdeal.lean ====
/-
  The run of the LSTM cell program up to and through its one pipelined region, and its frame.

  Before the region the host stacks the four gates' weights [1024, 2048] into one [4096, 2048] matrix and their biases
  into one row [1, 4096], and takes the transposes of the matrix's left and right halves (the x-part and the h-part),
  each [1024, 4096]. None of these writes an argument array, so the region finds the eleven arguments as launched.
  The region walks 64 row tiles; at tile t it fetches rows 256 t .. 256 t + 255 of x, h and c, keeps the two weight
  matrices and the bias row resident (fetched once, their block index never moves), runs the body and writes the
  two result tiles back. The proof data says, per window and tile, what the staging buffer holds after the body:
  an input's block unchanged, an output's the body's value of the six input blocks.
-/
import proofs.«174920_j15633680957661_2_alg».proof.Proof.CellBodyIdeal

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of the core holds when the region is entered: the launch contents after the nine host operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-! No host operation writes an argument array: each is found as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window w's block at tile t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every tile, fetched there or not (unfetched, its block
    index has not moved since the tile before), for any proof data over the entry contents whose body leaves the block in place. -/
theorem found0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run to the library's post -/

theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 2).trans (((dats 0 c).arrAt_in 2 rfl _).trans ((hA c 2).trans (entry_arg1 m c))),
      ((h c).1 1).trans (((dats 0 c).arrAt_in 1 rfl _).trans ((hA c 1).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

/-! ## The proof data -/

/-- Per window and tile, what the staging buffer holds after the body: the six inputs' blocks as fetched, the two outputs'
    at the new cell state and the new hidden state of those blocks. Nothing is carried between tiles. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellState (blockAt m c 0 t) (blockAt m c 1 t) (blockAt m c 2 t) (blockAt m c 3 t) (blockAt m c 4 t) (blockAt m c 5 t)
    | ⟨7, _⟩ => hiddenState (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = cellState (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = hiddenState (blockAt m c 0 t) (blockAt m c 1 t) (blockAt m c 2 t) (blockAt m c 3 t) (blockAt m c 4 t) (blockAt m c 5 t) := by dsimp only [dats]

theorem found0 (c : Dev nD) (t : Fin cfg0.N) (d) : (dats m 0 c).before 0 t d = blockAt m c 0 t :=
  found0_of m (dats m 0 c) (dats_A m c 0) (after0 m c) t d
theorem found1 (c : Dev nD) (t : Fin cfg0.N) (d) : (dats m 0 c).before 1 t d = blockAt m c 1 t :=
  found1_of m (dats m 0 c) (dats_A m c 1) (after1 m c) t d
theorem found2 (c : Dev nD) (t : Fin cfg0.N) (d) : (dats m 0 c).before 2 t d = blockAt m c 2 t :=
  found2_of m (dats m 0 c) (dats_A m c 2) (after2 m c) t d
theorem found3 (c : Dev nD) (t : Fin cfg0.N) (d) : (dats m 0 c).before 3 t d = blockAt m c 3 t :=
  found3_of m (dats m 0 c) (dats_A m c 3) (after3 m c) t d
theorem found4 (c : Dev nD) (t : Fin cfg0.N) (d) : (dats m 0 c).before 4 t d = blockAt m c 4 t :=
  found4_of m (dats m 0 c) (dats_A m c 4) (after4 m c) t d
theorem found5 (c : Dev nD) (t : Fin cfg0.N) (d) : (dats m 0 c).before 5 t d = blockAt m c 5 t :=
  found5_of m (dats m 0 c) (dats_A m c 5) (after5 m c) t d

/-! ## The body obligation at a generic tile -/

def tilePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def tilePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem tile_sound (c : Dev nD) (t : Fin cfg0.N) :
    tilePre m c t ⊢ wp frame (wpE (defs₀ (F := F)) Variants.none c none) Set.univ (bodyAt0 t) (fun _ => tilePost m c t) := by
  unfold tilePre tilePost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact tile_sound m c t

/-! ## The run and the frame -/

set_option backward.isDefEq.respectTransparency.types false in
/-- Every weakly fair execution of the program terminates without a fault; afterwards every window's array holds what the
    proof data computes, and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The frame: the program runs to the end, nothing faults, the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (dats m) (dats_A m) (run_main m ρ)

end Cert.KernelIdeal.Cell

end
-- ==== Proof.LstmSpec.lean ====
/-
  The LSTM cell as one function of its arguments, index by index, on the extended reals.

  With x, h, c : [16384, 1024], the four gates' weights stacked W : [4096, 2048] (row j of gate g = j / 1024), and their
  biases stacked b : [4096], the pre-activation of row r and gate column j is
      z r j = (sum_{k < 1024} x r k * W j k  +  sum_{k < 1024} h r k * W j (1024 + k))  +  b j,
  that is, row r of the concatenation [x | h] against row j of W, the contraction split at the seam. Then
      c' r q = sigmoid (z r q) * c r q + sigmoid (z r (1024 + q)) * tanh (z r (2048 + q)),
      h' r q = tanh (c' r q) * sigmoid (z r (3072 + q)),
  sigmoid u = 1 / (1 + exp (-u)). Sums of extended reals may be regrouped freely (addition is commutative and
  associative there), so the split needs no finiteness.
-/
import Mathlib.Algebra.BigOperators.Fin
import Idealize.ShloMosaic.PureOps.Ideal
import Idealize.ShloMosaic.PureOps.Ideal.Laws

noncomputable section

open scoped BigOperators

namespace Cert.LstmSpec

open Idealize.ShloMosaic

/-- Column k of the x-half and of the h-half of a row of W. -/
abbrev loCol (k : Fin 1024) : Fin 2048 := ⟨k.val, by have := k.isLt; omega⟩
abbrev hiCol (k : Fin 1024) : Fin 2048 := ⟨1024 + k.val, by have := k.isLt; omega⟩

/-- Column q of the forget, input, candidate and output gate among the 4096 stacked gate columns. -/
abbrev colF (q : Fin 1024) : Fin 4096 := ⟨q.val, by have := q.isLt; omega⟩
abbrev colI (q : Fin 1024) : Fin 4096 := ⟨1024 + q.val, by have := q.isLt; omega⟩
abbrev colG (q : Fin 1024) : Fin 4096 := ⟨2048 + q.val, by have := q.isLt; omega⟩
abbrev colO (q : Fin 1024) : Fin 4096 := ⟨3072 + q.val, by have := q.isLt; omega⟩

/-- The pre-activation z r j. -/
def preAct (x h : Fin 16384 → Fin 1024 → EReal) (W : Fin 4096 → Fin 2048 → EReal) (b : Fin 4096 → EReal)
    (r : Fin 16384) (j : Fin 4096) : EReal :=
  (∑ k : Fin 1024, x r k * W j (loCol k) + ∑ k : Fin 1024, h r k * W j (hiCol k)) + b j

/-- The new cell state c' r q. -/
def newCell (x h c : Fin 16384 → Fin 1024 → EReal) (W : Fin 4096 → Fin 2048 → EReal) (b : Fin 4096 → EReal)
    (r : Fin 16384) (q : Fin 1024) : EReal :=
  Ideal.logistic (preAct x h W b r (colF q)) * c r q
    + Ideal.logistic (preAct x h W b r (colI q)) * Ideal.tanh (preAct x h W b r (colG q))

/-- The new hidden state h' r q. -/
def newHidden (x h c : Fin 16384 → Fin 1024 → EReal) (W : Fin 4096 → Fin 2048 → EReal) (b : Fin 4096 → EReal)
    (r : Fin 16384) (q : Fin 1024) : EReal :=
  Ideal.tanh (newCell x h c W b r q) * Ideal.logistic (preAct x h W b r (colO q))

/-- A sum over the 2048 columns of [x | h] is the sum over the x-half plus the sum over the h-half. -/
theorem sum_halves (f : Fin 2048 → EReal) :
    ∑ k : Fin 2048, f k = ∑ k : Fin 1024, f (loCol k) + ∑ k : Fin 1024, f (hiCol k) := by
  have e := Fin.sum_univ_add (M := EReal) (a := 1024) (b := 1024) (show Fin (1024 + 1024) → EReal from f)
  exact e

/-- The f32 word of 1.0 is the real number one. -/
theorem ofBits_one : Ideal.ofBits .f32 0x3F800000#32 = 1 := by
  simp [Ideal.ofBits, Ideal.ieee, -EReal.coe_mul]; norm_num

end Cert.LstmSpec

end
-- ==== Proof.CellEntry.lean ====
/-
  What the region finds in the three operands the host computes: the two transposed weight halves and the bias row.

  The host stacks the gates' weights into hostW : [4096, 2048] and their biases into hostB : [4096]. The fourth operand
  is the transpose of hostW's columns 0..1023 (the change of float format the identity): at (k, j) it is hostW (j, k).
  The fifth is the transpose of columns 1024..2047: at (k, j) it is hostW (j, 1024 + k). The sixth is hostB re-laid as one
  row: at (0, j) it is hostB j.
-/
import proofs.«174920_j15633680957661_2_alg».proof.Proof.CellFrameIdeal
import proofs.«174920_j15633680957661_2_alg».proof.Proof.LstmSpec
import Idealize.ShloMosaic.Lib.Pipeline.Value
import Idealize.ShloMosaic.Lib.ValueIdx
import Idealize.ShloMosaic.Lib.StableHlo.Run

set_option maxRecDepth 16384

noncomputable section

namespace Cert.KernelIdeal.Cell

open Cert.KernelIdeal Cert.KernelIdeal.Gen Cert.LstmSpec
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The four gates' weights stacked, and their biases stacked, as the host forms them from the arguments. -/
def hostW (c : Dev nD) : S4096x2048.Idx → EReal :=
  concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩]
    concatenates_S1024x2048_S1024x2048_S1024x2048_S1024x2048_S4096x2048_d0
def hostB (c : Dev nD) : S4096.Idx → EReal :=
  concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
    concatenates_S1024_S1024_S1024_S1024_S4096_d0

/-- The x-part of the weights, transposed, at (k, j). -/
theorem entry_wx (c : Dev nD) (k : Fin 1024) (j : Fin 4096) :
    (entry m c main_v5 : S1024x4096.Idx → EReal) (ix2 k j) = hostW m c (ix2 j (loCol k)) := by
  have e : @Eq (S1024x4096.Idx → EReal) (entry m c main_v5)
      (truncf (F := Ideal) .bf16 (transpose S1024x4096 [1, 0] (extractStridedSlice S4096x1024 ![0, 0] (hostW m c) slices_S4096x2048_S4096x1024_0_0)
          transposes_S4096x1024_S1024x4096_1_0 : FVec Ideal S1024x4096 .f32) bitsLt_bf16_f32) := by
    dsimp only [entry, hostOps0]; after_results; rfl
  rw [e]
  show transpose S1024x4096 [1, 0] (extractStridedSlice S4096x1024 ![0, 0] (hostW m c) slices_S4096x2048_S4096x1024_0_0)
    transposes_S4096x1024_S1024x4096_1_0 (ix2 k j) = _
  refine (transpose_apply [1, 0] _ _ (ix2 k j) (ix2 j k) (fun b => by match b with | ⟨0, _⟩ => rfl | ⟨1, _⟩ => rfl)).trans ?_
  exact extractStridedSlice_apply ![0, 0] _ _ (ix2 j k) (ix2 j (loCol k))
    (fun a => by match a with | ⟨0, _⟩ => exact (Nat.zero_add _).symm | ⟨1, _⟩ => exact (Nat.zero_add _).symm)

/-- The h-part of the weights, transposed, at (k, j). -/
theorem entry_wh (c : Dev nD) (k : Fin 1024) (j : Fin 4096) :
    (entry m c main_v8 : S1024x4096.Idx → EReal) (ix2 k j) = hostW m c (ix2 j (hiCol k)) := by
  have e : @Eq (S1024x4096.Idx → EReal) (entry m c main_v8)
      (truncf (F := Ideal) .bf16 (transpose S1024x4096 [1, 0] (extractStridedSlice S4096x1024 ![0, 1024] (hostW m c) slices_S4096x2048_S4096x1024_0_1024)
          transposes_S4096x1024_S1024x4096_1_0 : FVec Ideal S1024x4096 .f32) bitsLt_bf16_f32) := by
    dsimp only [entry, hostOps0]; after_results; rfl
  rw [e]
  show transpose S1024x4096 [1, 0] (extractStridedSlice S4096x1024 ![0, 1024] (hostW m c) slices_S4096x2048_S4096x1024_0_1024)
    transposes_S4096x1024_S1024x4096_1_0 (ix2 k j) = _
  refine (transpose_apply [1, 0] _ _ (ix2 k j) (ix2 j k) (fun b => by match b with | ⟨0, _⟩ => rfl | ⟨1, _⟩ => rfl)).trans ?_
  exact extractStridedSlice_apply ![0, 1024] _ _ (ix2 j k) (ix2 j (hiCol k))
    (fun a => by match a with | ⟨0, _⟩ => exact (Nat.zero_add _).symm | ⟨1, _⟩ => rfl)

/-- The bias row at (0, j). -/
theorem entry_bias (c : Dev nD) (j : Fin 4096) :
    (entry m c main_v2 : S1x4096.Idx → EReal) (ix2 0 j) = hostB m c (ix1 j) := by
  have e : (entry m c main_v2 : S1x4096.Idx → EReal) = shapeCast S1x4096 (hostB m c) shapeCasts_S4096_S1x4096 := by
    dsimp only [entry, hostOps0]; after_results; rfl
  rw [e]
  refine shapeCast_apply _ _ (ix2 0 j) (ix1 j) ?_
  rw [Shape.rowMajor_val_one, Shape.rowMajor_val_two]
  show j.val = 0 * 4096 + j.val
  omega

end Cert.KernelIdeal.Cell

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«174920_j15633680957661_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.CellTile.lean ====
/-
  The kernel body's arithmetic at one index of the tile, on the extended reals.

  With the tile's rows x0, h0, c0 : [256, 1024], the resident matrices wx, wh : [1024, 4096] and the bias row b0 : [1, 4096],
  the body forms z0 = x0 . wx + h0 . wh + b0 : [256, 4096] (each product accumulated into zero, the change of float format the
  identity, the bias row repeated down the 256 rows), cuts z0 into its four column quarters, and stores
  sigmoid(z_f) * c0 + sigmoid(z_i) * tanh(z_g) and tanh(of that) * sigmoid(z_o). Read at (p, q) these are scalar
  expressions in z0 at (p, q), (p, 1024 + q), (p, 2048 + q), (p, 3072 + q).
-/
import proofs.«174920_j15633680957661_2_alg».proof.Proof.Gen.KernelIdeal.Skeleton
import proofs.«174920_j15633680957661_2_alg».proof.Proof.LibMatmul2
import proofs.«174920_j15633680957661_2_alg».proof.Proof.LstmSpec
import Idealize.ShloMosaic.Lib.Pipeline.Value
import Idealize.ShloMosaic.Lib.ValueIdx

noncomputable section

open scoped BigOperators

namespace Cert.KernelIdeal.Tile

open Cert.KernelIdeal Cert.KernelIdeal.Gen Cert.LstmSpec
open Idealize.ShloMosaic Idealize.ShloMosaic.ValueIdx

/-- The product's free axes: the left operand's row is the result's row, the right operand's column the result's column. -/
theorem lhs_row (j : S256x4096.Idx) (q : dot_S256x1024_S1024x4096_S256x4096_1_0_0_1_n_n.contr.Idx) : (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem rhs_col (j : S256x4096.Idx) (q : dot_S256x1024_S1024x4096_S256x4096_1_0_0_1_n_n.contr.Idx) : (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

variable (x0 h0 c0 : Vec Ideal S256x1024 .f32) (wx wh : Vec Ideal S1024x4096 .bf16) (b0 : Vec Ideal S1x4096 .f32)

/-- One product into the zero accumulator at (p, j): the sum over the 1024 contracted columns. -/
theorem product_apply (a : Vec Ideal S256x1024 .f32) (w : Vec Ideal S1024x4096 .bf16) (p : Fin 256) (j : Fin 4096) :
    matmul (F := Ideal) dot_S256x1024_S1024x4096_S256x4096_1_0_0_1_n_n none (truncf .bf16 a bitsLt_bf16_f32 : FVec Ideal S256x1024 .bf16)
      (shapeCast S1024x4096 w shapeCasts_S1024x4096_S1024x4096 : FVec Ideal S1024x4096 .bf16)
      (constant S256x4096 .f32 0x00000000#32) (ix2 p j) = ∑ k : Fin 1024, a (ix2 p k) * w (ix2 k j) := by
  refine (LibMatmul2.matmul_zero_apply dot_S256x1024_S1024x4096_S256x4096_1_0_0_1_n_n rfl rfl rfl rfl lhs_row rhs_col none _ _ p j).trans ?_
  refine Finset.sum_congr rfl fun k _ => ?_
  rw [shapeCast_self]
  rfl

/-- The bias row repeated down the rows, at (p, j). -/
theorem bias_apply (p : Fin 256) (j : Fin 4096) :
    broadcastTo S256x4096 (shapeCast S1x4096 b0 shapeCasts_S1x4096_S1x4096 : FVec Ideal S1x4096 .f32) broadcasts_S1x4096_S256x4096 (ix2 p j) = b0 (ix2 0 j) := by
  rw [shapeCast_self]
  exact broadcastTo_apply b0 _ (ix2 p j) (ix2 0 j) (fun a => by match a with | ⟨0, _⟩ => rfl | ⟨1, _⟩ => rfl)

/-- z0 at (p, j). -/
theorem z_tile (p : Fin 256) (j : Fin 4096) :
    k0_pay1 x0 h0 wx wh b0 (ix2 p j)
      = (∑ k : Fin 1024, x0 (ix2 p k) * wx (ix2 k j) + ∑ k : Fin 1024, h0 (ix2 p k) * wh (ix2 k j)) + b0 (ix2 0 j) := by
  unfold k0_pay1
  exact congrArg₂ (· + ·) (congrArg₂ (· + ·) (product_apply x0 wx p j) (product_apply h0 wh p j)) (bias_apply b0 p j)

/-- A column quarter of z0 at (p, q) is z0 at the quarter's column. -/
theorem quarterF (p : Fin 256) (q : Fin 1024) :
    extractStridedSlice S256x1024 ![0, 0] (k0_pay1 x0 h0 wx wh b0) slices_S256x4096_o0_0_S256x1024 (ix2 p q) = k0_pay1 x0 h0 wx wh b0 (ix2 p (colF q)) :=
  extractStridedSlice_apply ![0, 0] _ _ (ix2 p q) (ix2 p (colF q)) (fun a => by match a with | ⟨0, _⟩ => exact (Nat.zero_add _).symm | ⟨1, _⟩ => exact (Nat.zero_add _).symm)
theorem quarterI (p : Fin 256) (q : Fin 1024) :
    extractStridedSlice S256x1024 ![0, 1024] (k0_pay1 x0 h0 wx wh b0) slices_S256x4096_o0_1024_S256x1024 (ix2 p q) = k0_pay1 x0 h0 wx wh b0 (ix2 p (colI q)) :=
  extractStridedSlice_apply ![0, 1024] _ _ (ix2 p q) (ix2 p (colI q)) (fun a => by match a with | ⟨0, _⟩ => exact (Nat.zero_add _).symm | ⟨1, _⟩ => rfl)
theorem quarterG (p : Fin 256) (q : Fin 1024) :
    extractStridedSlice S256x1024 ![0, 2048] (k0_pay1 x0 h0 wx wh b0) slices_S256x4096_o0_2048_S256x1024 (ix2 p q) = k0_pay1 x0 h0 wx wh b0 (ix2 p (colG q)) :=
  extractStridedSlice_apply ![0, 2048] _ _ (ix2 p q) (ix2 p (colG q)) (fun a => by match a with | ⟨0, _⟩ => exact (Nat.zero_add _).symm | ⟨1, _⟩ => rfl)
theorem quarterO (p : Fin 256) (q : Fin 1024) :
    extractStridedSlice S256x1024 ![0, 3072] (k0_pay1 x0 h0 wx wh b0) slices_S256x4096_o0_3072_S256x1024 (ix2 p q) = k0_pay1 x0 h0 wx wh b0 (ix2 p (colO q)) :=
  extractStridedSlice_apply ![0, 3072] _ _ (ix2 p q) (ix2 p (colO q)) (fun a => by match a with | ⟨0, _⟩ => exact (Nat.zero_add _).symm | ⟨1, _⟩ => rfl)

/-- The stored cell state at (p, q). -/
theorem cell_tile (p : Fin 256) (q : Fin 1024) :
    k0_pay2 x0 h0 wx wh b0 c0 (ix2 p q)
      = Ideal.logistic (k0_pay1 x0 h0 wx wh b0 (ix2 p (colF q))) * c0 (ix2 p q)
        + Ideal.logistic (k0_pay1 x0 h0 wx wh b0 (ix2 p (colI q))) * Ideal.tanh (k0_pay1 x0 h0 wx wh b0 (ix2 p (colG q))) := by
  unfold k0_pay2
  exact congrArg₂ (· + ·) (congrArg₂ (· * ·) (congrArg Ideal.logistic (quarterF x0 h0 wx wh b0 p q)) rfl)
    (congrArg₂ (· * ·) (congrArg Ideal.logistic (quarterI x0 h0 wx wh b0 p q)) (congrArg Ideal.tanh (quarterG x0 h0 wx wh b0 p q)))

/-- The stored hidden state at (p, q). -/
theorem hidden_tile (p : Fin 256) (q : Fin 1024) :
    k0_pay3 x0 h0 wx wh b0 c0 (ix2 p q)
      = Ideal.tanh (k0_pay2 x0 h0 wx wh b0 c0 (ix2 p q)) * Ideal.logistic (k0_pay1 x0 h0 wx wh b0 (ix2 p (colO q))) := by
  unfold k0_pay3
  exact congrArg₂ (· * ·) rfl (congrArg Ideal.logistic (quarterO x0 h0 wx wh b0 p q))

end Cert.KernelIdeal.Tile

end
-- ==== Proof.CellValue.lean ====
/-
  From tiles to arrays: after the run the two result arrays are the specification of the arguments.

  Tile t's block of x, h, c and of each result is rows 256 t .. 256 t + 255 (all 1024 columns); the weights' and the bias row's
  block is the whole array at every tile. So the body's value at (p, q) of tile t is the specification at row 256 t + p:
  its products run over row 256 t + p of x and h against the transposed weight halves, which at (k, j) are the stacked weights
  at (j, k) and (j, 1024 + k). What tile t writes back is therefore block t of ONE array, the specification of the arguments;
  the 64 blocks cover all 16384 rows, so each result array ends equal to it.
-/
import proofs.«174920_j15633680957661_2_alg».proof.Proof.CellEntry
import proofs.«174920_j15633680957661_2_alg».proof.Proof.CellTile

set_option maxRecDepth 16384

noncomputable section

open scoped BigOperators

namespace Cert.KernelIdeal.Cell

open Cert.KernelIdeal Cert.KernelIdeal.Gen Cert.LstmSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 tiles: the five row-tiled windows sit at block (t, 0), the three resident ones at (0, 0). -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of tile t among the 16384 rows. -/
abbrev tileRow (t : Fin cfg0.N) (p : Fin 256) : Fin 16384 :=
  ⟨256 * t.val + p.val, by have h1 : t.val < 64 := Nat.lt_of_lt_of_eq t.isLt N_0; have h2 := p.isLt; omega⟩

/-! ## Each block read at an index -/

/-- Tile t's block of x. -/
theorem x_block (c : Dev nD) (t : Fin cfg0.N) (p : Fin 256) (k : Fin 1024) :
    blockAt m c 0 t (ix2 p k) = m ((c : Thread nD τ).loc main_arg0) (ix2 (tileRow t p) k) := by
  obtain ⟨e00, e01, e10, e11, e20, e21, e60, e61, e70, e71, e30, e31, e40, e41, e50, e51⟩ := tile_index t
  show entry m c main_arg0 (((cfg0.win 0).blk t).view.emb (ix2 p k)) = _
  rw [entry_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega
/-- Tile t's block of h. -/
theorem h_block (c : Dev nD) (t : Fin cfg0.N) (p : Fin 256) (k : Fin 1024) :
    blockAt m c 1 t (ix2 p k) = m ((c : Thread nD τ).loc main_arg2) (ix2 (tileRow t p) k) := by
  obtain ⟨e00, e01, e10, e11, e20, e21, e60, e61, e70, e71, e30, e31, e40, e41, e50, e51⟩ := tile_index t
  show entry m c main_arg2 (((cfg0.win 1).blk t).view.emb (ix2 p k)) = _
  rw [entry_arg2]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega
/-- Tile t's block of c. -/
theorem c_block (c : Dev nD) (t : Fin cfg0.N) (p : Fin 256) (k : Fin 1024) :
    blockAt m c 2 t (ix2 p k) = m ((c : Thread nD τ).loc main_arg1) (ix2 (tileRow t p) k) := by
  obtain ⟨e00, e01, e10, e11, e20, e21, e60, e61, e70, e71, e30, e31, e40, e41, e50, e51⟩ := tile_index t
  show entry m c main_arg1 (((cfg0.win 2).blk t).view.emb (ix2 p k)) = _
  rw [entry_arg1]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- The resident x-part of the transposed weights, at every tile. -/
theorem wx_block (c : Dev nD) (t : Fin cfg0.N) (k : Fin 1024) (j : Fin 4096) :
    blockAt m c 3 t (ix2 k j) = hostW m c (ix2 j (loCol k)) := by
  obtain ⟨e00, e01, e10, e11, e20, e21, e60, e61, e70, e71, e30, e31, e40, e41, e50, e51⟩ := tile_index t
  refine Eq.trans ?_ (entry_wx m c k j)
  show entry m c main_v5 (((cfg0.win 3).blk t).view.emb (ix2 k j)) = entry m c main_v5 (ix2 k j)
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

/-- The resident h-part of the transposed weights, at every tile. -/
theorem wh_block (c : Dev nD) (t : Fin cfg0.N) (k : Fin 1024) (j : Fin 4096) :
    blockAt m c 4 t (ix2 k j) = hostW m c (ix2 j (hiCol k)) := by
  obtain ⟨e00, e01, e10, e11, e20, e21, e60, e61, e70, e71, e30, e31, e40, e41, e50, e51⟩ := tile_index t
  refine Eq.trans ?_ (entry_wh m c k j)
  show entry m c main_v8 (((cfg0.win 4).blk t).view.emb (ix2 k j)) = entry m c main_v8 (ix2 k j)
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

/-- The resident bias row, at every tile. -/
theorem bias_block (c : Dev nD) (t : Fin cfg0.N) (j : Fin 4096) :
    blockAt m c 5 t (ix2 0 j) = hostB m c (ix1 j) := by
  obtain ⟨e00, e01, e10, e11, e20, e21, e60, e61, e70, e71, e30, e31, e40, e41, e50, e51⟩ := tile_index t
  refine Eq.trans ?_ (entry_bias m c j)
  show entry m c main_v2 (((cfg0.win 5).blk t).view.emb (ix2 0 j)) = entry m c main_v2 (ix2 0 j)
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-! ## The arguments by coordinates, and the two result arrays -/

abbrev argX (c : Dev nD) : Fin 16384 → Fin 1024 → EReal := fun r k => m ((c : Thread nD τ).loc main_arg0) (ix2 r k)
abbrev argC (c : Dev nD) : Fin 16384 → Fin 1024 → EReal := fun r k => m ((c : Thread nD τ).loc main_arg1) (ix2 r k)
abbrev argH (c : Dev nD) : Fin 16384 → Fin 1024 → EReal := fun r k => m ((c : Thread nD τ).loc main_arg2) (ix2 r k)
abbrev argW (c : Dev nD) : Fin 4096 → Fin 2048 → EReal := fun j k => hostW m c (ix2 j k)
abbrev argB (c : Dev nD) : Fin 4096 → EReal := fun j => hostB m c (ix1 j)

/-- The new cell state and the new hidden state as whole arrays of the arguments. -/
def cellArray (c : Dev nD) : S16384x1024.Idx → EReal := fun i =>
  newCell (argX m c) (argH m c) (argC m c) (argW m c) (argB m c) (i 0) (i 1)
def hiddenArray (c : Dev nD) : S16384x1024.Idx → EReal := fun i =>
  newHidden (argX m c) (argH m c) (argC m c) (argW m c) (argB m c) (i 0) (i 1)

/-- The body's z0 at (p, j) of tile t is the specification's pre-activation at row 256 t + p. -/
theorem z_block (c : Dev nD) (t : Fin cfg0.N) (p : Fin 256) (j : Fin 4096) :
    k0_pay1 (blockAt m c 0 t) (blockAt m c 1 t) (blockAt m c 3 t) (blockAt m c 4 t) (blockAt m c 5 t) (ix2 p j)
      = preAct (argX m c) (argH m c) (argW m c) (argB m c) (tileRow t p) j := by
  refine (Tile.z_tile (blockAt m c 0 t) (blockAt m c 1 t) (blockAt m c 3 t) (blockAt m c 4 t) (blockAt m c 5 t) p j).trans ?_
  unfold preAct
  refine congrArg₂ (· + ·) (congrArg₂ (· + ·) (Finset.sum_congr rfl fun k _ => ?_) (Finset.sum_congr rfl fun k _ => ?_)) ?_
  · rw [x_block, wx_block]
  · rw [h_block, wh_block]
  · exact bias_block m c t j

theorem cell_block (c : Dev nD) (t : Fin cfg0.N) (p : Fin 256) (q : Fin 1024) :
    k0_pay2 (blockAt m c 0 t) (blockAt m c 1 t) (blockAt m c 3 t) (blockAt m c 4 t) (blockAt m c 5 t) (blockAt m c 2 t) (ix2 p q)
      = newCell (argX m c) (argH m c) (argC m c) (argW m c) (argB m c) (tileRow t p) q := by
  refine (Tile.cell_tile (blockAt m c 0 t) (blockAt m c 1 t) (blockAt m c 2 t) (blockAt m c 3 t) (blockAt m c 4 t) (blockAt m c 5 t) p q).trans ?_
  rw [z_block, z_block, z_block, c_block]
  rfl

theorem hidden_block (c : Dev nD) (t : Fin cfg0.N) (p : Fin 256) (q : Fin 1024) :
    k0_pay3 (blockAt m c 0 t) (blockAt m c 1 t) (blockAt m c 3 t) (blockAt m c 4 t) (blockAt m c 5 t) (blockAt m c 2 t) (ix2 p q)
      = newHidden (argX m c) (argH m c) (argC m c) (argW m c) (argB m c) (tileRow t p) q := by
  refine (Tile.hidden_tile (blockAt m c 0 t) (blockAt m c 1 t) (blockAt m c 2 t) (blockAt m c 3 t) (blockAt m c 4 t) (blockAt m c 5 t) p q).trans ?_
  rw [cell_block, z_block]
  rfl

/-! ## What a tile writes back -/

theorem out_row6 (t : Fin cfg0.N) (p : Fin 256) (q : Fin 1024) :
    ((cfg0.win 6).blk t).view.emb (ix2 p q) = ix2 (tileRow t p) q := by
  obtain ⟨e00, e01, e10, e11, e20, e21, e60, e61, e70, e71, e30, e31, e40, e41, e50, e51⟩ := tile_index t
  refine funext fun a => Fin.ext ?_
  match a with
  | ⟨0, _⟩ => show win0_6.index t (0 : Fin 2) * 256 + 1 * p.val = 256 * t.val + p.val; omega
  | ⟨1, _⟩ => show win0_6.index t (1 : Fin 2) * 1024 + 1 * q.val = q.val; omega
theorem out_row7 (t : Fin cfg0.N) (p : Fin 256) (q : Fin 1024) :
    ((cfg0.win 7).blk t).view.emb (ix2 p q) = ix2 (tileRow t p) q := by
  obtain ⟨e00, e01, e10, e11, e20, e21, e60, e61, e70, e71, e30, e31, e40, e41, e50, e51⟩ := tile_index t
  refine funext fun a => Fin.ext ?_
  match a with
  | ⟨0, _⟩ => show win0_7.index t (0 : Fin 2) * 256 + 1 * p.val = 256 * t.val + p.val; omega
  | ⟨1, _⟩ => show win0_7.index t (1 : Fin 2) * 1024 + 1 * q.val = q.val; omega

/-- Tile t writes back block t of the cell-state array. -/
theorem cell_flushed (c : Dev nD) (t : Fin cfg0.N) :
    (dats m 0 c).flushed 6 t = ((cfg0.win 6).blk t).view.read (Elt Ideal) (cellArray m c) := by
  show (cfg0.win 6).cut (grid0.coords t) ((dats m 0 c).after 6 t) = _
  rw [after6]
  unfold cellState
  rw [View.canon_unit_zero zero_offsets]
  simp only [View.ld_unit_zero (S := S256x1024) zero_offsets, View.ld_unit_zero (S := S1024x4096) zero_offsets,
    View.ld_unit_zero (S := S1x4096) zero_offsets]
  funext y
  obtain ⟨p, q, rfl⟩ : ∃ (p : Fin 256) (q : Fin 1024), y = ix2 p q := ⟨y 0, y 1, eq_ix2 (n0 := 256) (n1 := 1024) y⟩
  show k0_pay2 (blockAt m c 0 t) (blockAt m c 1 t) (blockAt m c 3 t) (blockAt m c 4 t) (blockAt m c 5 t) (blockAt m c 2 t) (ix2 p q) = cellArray m c (((cfg0.win 6).blk t).view.emb (ix2 p q))
  rw [out_row6, cell_block]
  rfl

/-- Tile t writes back block t of the hidden-state array. -/
theorem hidden_flushed (c : Dev nD) (t : Fin cfg0.N) :
    (dats m 0 c).flushed 7 t = ((cfg0.win 7).blk t).view.read (Elt Ideal) (hiddenArray m c) := by
  show (cfg0.win 7).cut (grid0.coords t) ((dats m 0 c).after 7 t) = _
  rw [after7]
  unfold hiddenState
  rw [View.canon_unit_zero zero_offsets]
  simp only [View.ld_unit_zero (S := S256x1024) zero_offsets, View.ld_unit_zero (S := S1024x4096) zero_offsets,
    View.ld_unit_zero (S := S1x4096) zero_offsets]
  funext y
  obtain ⟨p, q, rfl⟩ : ∃ (p : Fin 256) (q : Fin 1024), y = ix2 p q := ⟨y 0, y 1, eq_ix2 (n0 := 256) (n1 := 1024) y⟩
  show k0_pay3 (blockAt m c 0 t) (blockAt m c 1 t) (blockAt m c 3 t) (blockAt m c 4 t) (blockAt m c 5 t) (blockAt m c 2 t) (ix2 p q) = hiddenArray m c (((cfg0.win 7).blk t).view.emb (ix2 p q))
  rw [out_row7, hidden_block]
  rfl

/-! ## The blocks cover the arrays -/

/-- An index is in tile t's block iff each coordinate is in the block's range on its axis. -/
theorem mem_tile6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v9_0).slice (win0_6.rect t)).set ↔ _
  rw [View.set_slice_whole, Rect.mem_set_unit]
  exact Iff.rfl

/-- Every index of the array lies in the block of the tile that holds its row. -/
theorem covered6 (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : (i 0).val / 256 < cfg0.N := by rw [show cfg0.N = 64 from N_0]; omega
  obtain ⟨e00, e01, e10, e11, e20, e21, e60, e61, e70, e71, e30, e31, e40, e41, e50, e51⟩ := tile_index ⟨(i 0).val / 256, hN⟩
  refine ⟨⟨(i 0).val / 256, hN⟩, flush0_6 _, ?_⟩
  rw [mem_tile6]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    rw [e60]; show (i 0).val / 256 * 256 ≤ (i 0).val ∧ (i 0).val < (i 0).val / 256 * 256 + 256; omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    rw [e61]; omega

theorem mem_tile7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v9_1).slice (win0_7.rect t)).set ↔ _
  rw [View.set_slice_whole, Rect.mem_set_unit]
  exact Iff.rfl

/-- Every index of the array lies in the block of the tile that holds its row. -/
theorem covered7 (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  have hN : (i 0).val / 256 < cfg0.N := by rw [show cfg0.N = 64 from N_0]; omega
  obtain ⟨e00, e01, e10, e11, e20, e21, e60, e61, e70, e71, e30, e31, e40, e41, e50, e51⟩ := tile_index ⟨(i 0).val / 256, hN⟩
  refine ⟨⟨(i 0).val / 256, hN⟩, flush0_7 _, ?_⟩
  rw [mem_tile7]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e70]; show (i 0).val / 256 * 256 ≤ (i 0).val ∧ (i 0).val < (i 0).val / 256 * 256 + 256; omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    rw [e71]; omega

/-! ## The arrays after the run -/

theorem cell_final (c : Dev nD) : (dats m 0 c).arrAt 6 cfg0.N = cellArray m c :=
  (dats m 0 c).arrAt_eq_of_cover 6 (cellArray m c) (fun t _ => cell_flushed m c t) covered6

theorem hidden_final (c : Dev nD) : (dats m 0 c).arrAt 7 cfg0.N = hiddenArray m c :=
  (dats m 0 c).arrAt_eq_of_cover 7 (hiddenArray m c) (fun t _ => hidden_flushed m c t) covered7

/-- The run with both results named: the program terminates without a fault, its first result is the cell-state array,
    its second the hidden-state array, and its arguments end as launched. -/
theorem run_results : θ_run defs (onTc (τ := τ) (main (F := Ideal))) ⟨m, fun _ => 0, ρ⟩ (fun r => ∀ c : Dev nD,
      r.2.mem ((c.tc : Thread nD τ).loc main_v9_0) = cellArray m c
      ∧ r.2.mem ((c.tc : Thread nD τ).loc main_v9_1) = hiddenArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 6).trans (cell_final m c), ((h c).1 7).trans (hidden_final m c),
      ((h c).1 0).trans ((((dats m) 0 c).arrAt_in 0 rfl _).trans ((dats_A m c 0).trans (entry_arg0 m c))),
      ((h c).1 2).trans ((((dats m) 0 c).arrAt_in 2 rfl _).trans ((dats_A m c 2).trans (entry_arg1 m c))),
      ((h c).1 1).trans ((((dats m) 0 c).arrAt_in 1 rfl _).trans ((dats_A m c 1).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) (run_main m ρ)

end Cert.KernelIdeal.Cell

end
-- ==== Proof.RefCell.lean ====
/-
  The reference program computes the specification, index by index.

  The reference forms xx = [x | h] : [16384, 2048], the stacked weights W : [4096, 2048] and biases b : [4096], and
  z = xx . W^T + b : [16384, 4096]. At (r, j) the contraction runs over the 2048 columns of row r of xx against row j of W;
  its first 1024 terms read x and the x-half of W's row, its last 1024 read h and the h-half — the specification's two
  sums. The gates are the four column quarters of z; the reference spells sigmoid u as 1 / (1 + exp (-u)) with the
  f32 word of 1.0, which is the real number one.
-/
import proofs.«174920_j15633680957661_2_alg».proof.Proof.Gen.ReferenceIdeal.Read
import proofs.«174920_j15633680957661_2_alg».proof.Proof.LstmSpec
import Idealize.ShloMosaic.Lib.Pipeline.Value
import Idealize.ShloMosaic.Lib.ValueIdx

noncomputable section

open scoped BigOperators

namespace Cert.ReferenceIdeal.Cell

open Cert.ReferenceIdeal Cert.ReferenceIdeal.Gen Cert.ReferenceIdeal.Read Cert.LstmSpec
open Idealize.ShloMosaic Idealize.ShloMosaic.ValueIdx

variable (x0 x1 x2 : (⟨S16384x1024, .f32⟩ : BufTy).Contents (Elt Ideal))
  (x3 x5 x7 x9 : (⟨S1024x2048, .f32⟩ : BufTy).Contents (Elt Ideal))
  (x4 x6 x8 x10 : (⟨S1024, .f32⟩ : BufTy).Contents (Elt Ideal))

/-- An array [16384, 1024] by its two coordinates. -/
abbrev rows (a : (⟨S16384x1024, .f32⟩ : BufTy).Contents (Elt Ideal)) : Fin 16384 → Fin 1024 → EReal := fun r k => a (ix2 r k)

/-- The stacked weights and biases by their coordinates. -/
abbrev stackedW : Fin 4096 → Fin 2048 → EReal := fun j k => val_main_v1 (F := Ideal) x3 x5 x7 x9 (ix2 j k)
abbrev stackedB : Fin 4096 → EReal := fun j => val_main_v2 (F := Ideal) x4 x6 x8 x10 (ix1 j)

/-- Row r of [x | h] at a column of the left half is x. -/
theorem concat_lo (r : Fin 16384) (k : Fin 1024) :
    val_main_v0 (F := Ideal) x0 x2 (ix2 r (loCol k)) = x0 (ix2 r k) := by
  unfold val_main_v0
  exact concatenate_pair_apply_left (1 : Fin 2) x0 x2 _ (ix2 r (loCol k)) rfl (ix2 r k)
    (fun b => by match b with | ⟨0, _⟩ => rfl | ⟨1, _⟩ => rfl)

/-- Row r of [x | h] at a column of the right half is h. -/
theorem concat_hi (r : Fin 16384) (k : Fin 1024) :
    val_main_v0 (F := Ideal) x0 x2 (ix2 r (hiCol k)) = x2 (ix2 r k) := by
  unfold val_main_v0
  exact concatenate_pair_apply_right (1 : Fin 2) x0 x2 _ (ix2 r (hiCol k)) rfl rfl (ix2 r k)
    (fun b hb => by match b with | ⟨0, _⟩ => rfl | ⟨1, _⟩ => exact absurd rfl hb)
    (by show k.val + 1024 = 1024 + k.val; omega)

/-- The transposed stacked weights at (k, j) are the stacked weights at (j, k). -/
theorem wT_apply (k : Fin 2048) (j : Fin 4096) :
    val_main_v3 (F := Ideal) x3 x5 x7 x9 (ix2 k j) = stackedW x3 x5 x7 x9 j k := by
  rw [val_main_v3_apply]
  exact congrArg _ (funext fun a => by match a with | ⟨0, _⟩ => rfl | ⟨1, _⟩ => rfl)

/-- The reference's z at (r, j) is the specification's pre-activation. -/
theorem z_apply (r : Fin 16384) (j : Fin 4096) :
    val_main_v7 (F := Ideal) x0 x2 x3 x4 x5 x6 x7 x8 x9 x10 (ix2 r j)
      = preAct (rows x0) (rows x2) (stackedW x3 x5 x7 x9) (stackedB x4 x6 x8 x10) r j := by
  rw [val_main_v7_apply, val_main_v4_apply, val_main_v6_apply, val_main_v5_apply]
  have el : ∀ k : Fin 2048, lidx_main_v4 (ix2 r j) k = ix2 r k := fun k =>
    funext fun a => by match a with | ⟨0, _⟩ => rfl | ⟨1, _⟩ => rfl
  have er : ∀ k : Fin 2048, ridx_main_v4 (ix2 r j) k = ix2 k j := fun k =>
    funext fun a => by match a with | ⟨0, _⟩ => rfl | ⟨1, _⟩ => rfl
  have eb : idx_main_v5 (idx_main_v6 (ix2 r j)) = ix1 j :=
    funext fun a => by match a with | ⟨0, _⟩ => rfl
  simp only [el, er, eb, wT_apply]
  rw [sum_halves]
  simp only [concat_lo, concat_hi]
  rfl

/-- The reference's first result, the new cell state, is the specification's. -/
theorem cell_apply (r : Fin 16384) (q : Fin 1024) :
    val_main_v33 (F := Ideal) x0 x1 x2 x3 x4 x5 x6 x7 x8 x9 x10 (ix2 r q)
      = newCell (rows x0) (rows x2) (rows x1) (stackedW x3 x5 x7 x9) (stackedB x4 x6 x8 x10) r q := by
  have e8 : idx_main_v8 (ix2 r q) = ix2 r (colF q) := funext fun a => by match a with | ⟨0, _⟩ => rfl | ⟨1, _⟩ => rfl
  have e9 : idx_main_v9 (ix2 r q) = ix2 r (colI q) := funext fun a => by match a with | ⟨0, _⟩ => rfl | ⟨1, _⟩ => rfl
  have e10 : idx_main_v10 (ix2 r q) = ix2 r (colG q) := funext fun a => by match a with | ⟨0, _⟩ => rfl | ⟨1, _⟩ => rfl
  simp only [val_main_v33_apply, val_main_v32_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply,
    val_main_v10_apply, val_main_v9_apply, val_main_v8_apply,
    val_main_cst_apply, val_main_cst_0_apply, val_main_cst_1_apply, val_main_cst_2_apply,
    e8, e9, e10, z_apply]
  simp only [Ideal.ofBits_def, Ideal.addf_def, Ideal.mulf_def, Ideal.hostDivf_def, Ideal.hostNegf_def, Ideal.negf_def,
    Ideal.hostUnary_exp_def, Ideal.hostUnary_tanh_def, ofBits_one]
  rfl

/-- The reference's second result, the new hidden state, is the specification's. -/
theorem hidden_apply (r : Fin 16384) (q : Fin 1024) :
    val_main_v35 (F := Ideal) x0 x1 x2 x3 x4 x5 x6 x7 x8 x9 x10 (ix2 r q)
      = newHidden (rows x0) (rows x2) (rows x1) (stackedW x3 x5 x7 x9) (stackedB x4 x6 x8 x10) r q := by
  have e11 : idx_main_v11 (ix2 r q) = ix2 r (colO q) := funext fun a => by match a with | ⟨0, _⟩ => rfl | ⟨1, _⟩ => rfl
  rw [val_main_v35_apply, val_main_v34_apply, cell_apply]
  simp only [val_main_v31_apply, val_main_v30_apply, val_main_v29_apply, val_main_v28_apply, val_main_v27_apply,
    val_main_v26_apply, val_main_v11_apply, val_main_cst_3_apply, val_main_cst_4_apply, e11, z_apply]
  simp only [Ideal.ofBits_def, Ideal.addf_def, Ideal.mulf_def, Ideal.hostDivf_def, Ideal.hostNegf_def, Ideal.negf_def,
    Ideal.hostUnary_exp_def, Ideal.hostUnary_tanh_def, ofBits_one]
  rfl

end Cert.ReferenceIdeal.Cell

end
-- ==== Proof.lean ====
/-
  An LSTM cell over 16384 rows: a row-tiled kernel with the gates' weights pre-split and pre-transposed on the host,
  against the plain reference that concatenates [x | h] and multiplies by the stacked weights once.

  On the extended reals both compute, at row r and column q,
      c' = sigmoid (z_f) * c + sigmoid (z_i) * tanh (z_g),     h' = tanh (c') * sigmoid (z_o),
  with z = [x | h] . W^T + b read at the four gate columns q, 1024 + q, 2048 + q, 3072 + q. The kernel forms z as
  x . WxT + h . WhT + b, where WxT and WhT are the transposes of W's left and right column halves: the reference's one
  contraction over 2048 columns split at the seam, which is a regrouping of a finite sum. A change of float format is the
  identity there and the kernel's sigmoid is the reference's quotient 1 / (1 + exp (-u)), so no finiteness of the inputs is
  used. Each program's frame — it runs to the end, nothing faults, its eleven argument arrays end as launched — comes with its
  run; the idealized kernel is the kernel's own text read on the extended reals, so there is nothing to preserve.
-/
import proofs.«174920_j15633680957661_2_alg».proof.Defs
import proofs.«174920_j15633680957661_2_alg».proof.Proof.Gen.Kernel
import proofs.«174920_j15633680957661_2_alg».proof.Proof.Gen.Kernel.Skeleton
import proofs.«174920_j15633680957661_2_alg».proof.Proof.Gen.Kernel.Launch
import proofs.«174920_j15633680957661_2_alg».proof.Proof.Gen.Kernel.Points
import proofs.«174920_j15633680957661_2_alg».proof.Proof.Gen.KernelIdeal
import proofs.«174920_j15633680957661_2_alg».proof.Proof.Gen.KernelIdeal.Skeleton
import proofs.«174920_j15633680957661_2_alg».proof.Proof.Gen.KernelIdeal.Launch
import proofs.«174920_j15633680957661_2_alg».proof.Proof.Gen.KernelIdeal.Points
import proofs.«174920_j15633680957661_2_alg».proof.Proof.Gen.ReferenceIdeal
import proofs.«174920_j15633680957661_2_alg».proof.Proof.Gen.Pre_finite_inputs
import proofs.«174920_j15633680957661_2_alg».proof.Proof.Gen.ReferenceIdeal.Run
import proofs.«174920_j15633680957661_2_alg».proof.Proof.Gen.ReferenceIdeal.Read
import proofs.«174920_j15633680957661_2_alg».proof.Proof.CellFrame
import proofs.«174920_j15633680957661_2_alg».proof.Proof.CellValue
import proofs.«174920_j15633680957661_2_alg».proof.Proof.RefCell
import Idealize.ShloMosaic.Adequacy
import Idealize.ShloMosaic.Init

noncomputable section

namespace Cert.Proof

open Idealize.ShloMosaic Idealize.ShloMosaic.ValueIdx Idealize.SL.Sem

/-- The word-level kernel's frame. -/
theorem frame_kernel : Cert.frame_Kernel := fun m ρ _ => Cert.Kernel.Cell.frame m ρ

/-- The idealized kernel's frame. -/
theorem frame_kernel_ideal : Cert.frame_KernelIdeal := fun m ρ _ => Cert.KernelIdeal.Cell.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories agreeing on the arguments, end with the cell-state array and the hidden-state array of
    those arguments: the kernel by its tiles covering the rows, the reference index by index. -/
theorem algebraic : Cert.algebraic_KernelIdeal_ReferenceIdeal := by
  intro m ρ m' ρ' _ hagree
  refine ⟨fun c => Cert.KernelIdeal.Cell.cellArray m c, fun c => Cert.KernelIdeal.Cell.hiddenArray m c,
    Cert.KernelIdeal.Cell.run_results m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v33_eq]
    obtain ⟨a0, a1, a2, a3, a4, a5, a6, a7, a8, a9, a10⟩ := hagree c
    rw [a0, a1, a2, a3, a4, a5, a6, a7, a8, a9, a10]
    funext i
    obtain ⟨r, q, rfl⟩ : ∃ (r : Fin 16384) (q : Fin 1024), i = ix2 r q := ⟨i 0, i 1, eq_ix2 (n0 := 16384) (n1 := 1024) i⟩
    rw [Cert.ReferenceIdeal.Cell.cell_apply]
    rfl
  · refine (h c).2.1.trans ?_
    rw [Cert.ReferenceIdeal.Read.val_main_v35_eq]
    obtain ⟨a0, a1, a2, a3, a4, a5, a6, a7, a8, a9, a10⟩ := hagree c
    rw [a0, a1, a2, a3, a4, a5, a6, a7, a8, a9, a10]
    funext i
    obtain ⟨r, q, rfl⟩ : ∃ (r : Fin 16384) (q : Fin 1024), i = ix2 r q := ⟨i 0, i 1, eq_ix2 (n0 := 16384) (n1 := 1024) i⟩
    rw [Cert.ReferenceIdeal.Cell.hidden_apply]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
